-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048 .f32) (main_arg3 : FVec F S16x2048 .f32) (main_arg4 : FVec F S2048x16 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S8192x2048 : Shape := ⟨2, ![8192, 2048]⟩
abbrev S1x2048 : Shape := ⟨2, ![1, 2048]⟩
abbrev S512x2048 : Shape := ⟨2, ![512, 2048]⟩
abbrev S512x16 : Shape := ⟨2, ![512, 16]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S8192x2048, .f32⟩
  | .hbm, ⟨6, _⟩ => ⟨S1x2048, .f32⟩
  | .hbm, ⟨7, _⟩ => ⟨S2048x2048, .bf16⟩
  | .hbm, ⟨8, _⟩ => ⟨S16x2048, .bf16⟩
  | .hbm, ⟨9, _⟩ => ⟨S2048x16, .bf16⟩
  | .hbm, ⟨10, _⟩ => ⟨S8192x2048, .f32⟩
  | .hbm, ⟨11, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S16x2048, .bf16⟩
  | .local _ .vmem, ⟨4, _⟩ => ⟨S2048x16, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x2048_S8192x2048 : S4x2048x2048.ShapeCasts S8192x2048
  shapeCasts_S2048_S1x2048 : S2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S2048x2048_S512x2048_1_1_0_0_n_n_wf : DotDims.WF S512x2048 S2048x2048 S512x2048 [1] [1] [0] [0] [] []
  dot_S512x2048_S16x2048_S512x16_1_1_0_0_n_n_wf : DotDims.WF S512x2048 S16x2048 S512x16 [1] [1] [0] [0] [] []
  dot_S512x16_S2048x16_S512x2048_1_1_0_0_n_n_wf : DotDims.WF S512x16 S2048x16 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .bf16 = 32 ∨ (Rect.block (s := S16x2048) S16x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2048x16.size a
  hwx0_3 : ∀ i : grid0.Coords, EltTy.bits .bf16 = 32 ∨ (Rect.block (s := S2048x16) S2048x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S16x2048_S512x16_1_1_0_0_n_n : DotDims S512x2048 S16x2048 S512x16 where
  lhsContracting := [1]
  rhsContracting := [1]
  lhsNonContracting := [0]
  rhsNonContracting := [0]
  lhsBatch := []
  rhsBatch := []
  wf := dot_S512x2048_S16x2048_S512x16_1_1_0_0_n_n_wf
def dot_S512x16_S2048x16_S512x2048_1_1_0_0_n_n : DotDims S512x16 S2048x16 S512x2048 where
  lhsContracting := [1]
  rhsContracting := [1]
  lhsNonContracting := [0]
  rhsNonContracting := [0]
  lhsBatch := []
  rhsBatch := []
  wf := dot_S512x16_S2048x16_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S1x1x2048 : Shape := ⟨3, ![1, 1, 2048]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S4x2048x2048, .f32⟩
  | .hbm, ⟨6, _⟩ => ⟨S1x1x2048, .f32⟩
  | .hbm, ⟨7, _⟩ => ⟨S4x2048x2048, .f32⟩
  | .hbm, ⟨8, _⟩ => ⟨S4x2048x2048, .f32⟩
  | .hbm, ⟨9, _⟩ => ⟨S4x2048x16, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S16x2048_S4x2048x16_2_1_01_0_n_n_wf : DotDims.WF S4x2048x2048 S16x2048 S4x2048x16 [2] [1] [0, 1] [0] [] []
  dot_S4x2048x16_S2048x16_S4x2048x2048_2_1_01_0_n_n_wf : DotDims.WF S4x2048x16 S2048x16 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S16x2048_S4x2048x16_2_1_01_0_n_n : DotDims S4x2048x2048 S16x2048 S4x2048x16 where
  lhsContracting := [2]
  rhsContracting := [1]
  lhsNonContracting := [0, 1]
  rhsNonContracting := [0]
  lhsBatch := []
  rhsBatch := []
  wf := dot_S4x2048x2048_S16x2048_S4x2048x16_2_1_01_0_n_n_wf
def dot_S4x2048x16_S2048x16_S4x2048x2048_2_1_01_0_n_n : DotDims S4x2048x16 S2048x16 S4x2048x2048 where
  lhsContracting := [2]
  rhsContracting := [1]
  lhsNonContracting := [0, 1]
  rhsNonContracting := [0]
  lhsBatch := []
  rhsBatch := []
  wf := dot_S4x2048x16_S2048x16_S4x2048x2048_2_1_01_0_n_n_wf

class Facts : Prop extends Facts₀ where

variable [Facts]
-- ==== Proof.Spec.lean ====
/-
  The function both programs compute, one output entry at a time.

  A dense layer with a rank-16 correction: for a row `x` of 2048 reals, weights `W` (2048 × 2048), a bias `β`,
  low-rank factors `A` (16 × 2048) and `B` (2048 × 16) and a scale `s`, output column `q` is
      (Σ_d x_d · W_{q d} + β_q) + (Σ_r (Σ_d x_d · A_{r d}) · B_{q r}) · s .
  Both `W` and the factors are contracted along their LAST axis (the product is with the transposes).
  Everything is over the extended reals; only sums and products of the entries appear, in this fixed grouping,
  so no law of arithmetic is needed to compare two programs that both spell an entry this way.
-/
import Idealize.ShloMosaic.PureOps.Ideal
import Idealize.ShloMosaic.Lib.ValueIdx

noncomputable section

namespace Cert.LowRank

open Idealize.ShloMosaic Idealize.ShloMosaic.ValueIdx

/-- Output column `q` of the layer on the input row `row`: the dense part plus its bias entry `β`, plus the
    low-rank part (first down to 16 coordinates through `A`, then up through `B`) times the scale `s`. -/
def entry (row : Fin 2048 → EReal) (W : (⟨2, ![2048, 2048]⟩ : Shape).Idx → EReal)
    (A : (⟨2, ![16, 2048]⟩ : Shape).Idx → EReal) (B : (⟨2, ![2048, 16]⟩ : Shape).Idx → EReal)
    (β s : EReal) (q : Fin 2048) : EReal :=
  ((∑ d : Fin 2048, row d * W (ix2 q d)) + β)
    + (∑ r : Fin 16, (∑ d : Fin 2048, row d * A (ix2 r d)) * B (ix2 q r)) * s

/-- The layer on a batch of 4 × 2048 rows: entry (a, t, o) of the result is column `o` of the layer on row (a, t) of `x`,
    with the scale the constant 2 (the float word `0x40000000`). Stated over explicit coordinates. -/
def layerAt (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal) (a : Fin 4) (t : Fin 2048) (o : Fin 2048) : EReal :=
  entry (fun d => x (ix3 a t d)) W A B (b (ix1 o)) (Ideal.ofBits .f32 0x40000000#32) o

/-- The same as one array of shape [4, 2048, 2048]. -/
def layer (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal) : (⟨3, ![4, 2048, 2048]⟩ : Shape).Idx → EReal :=
  fun i => layerAt x W b A B (i 0) (i 1) (i 2)

theorem layer_apply (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal) (a : Fin 4) (t : Fin 2048) (o : Fin 2048) :
    layer x W b A B (ix3 a t o) = layerAt x W b A B a t o := rfl

end Cert.LowRank

end
-- ==== Proof.LibTransposedRhs.lean ====
/-
  A rank-2 matrix product that contracts the LAST axis of both operands — [M, K] times [N, K], giving [M, N], the
  product with the right operand's transpose — read at one output entry over the extended reals: started from a zero
  accumulator it is the plain sum  Σ_k lhs (p, k) · rhs (q, k).
-/
import Idealize.ShloMosaic.Lib.ValueIdx
import Idealize.ShloMosaic.PureOps.Ideal.Laws

noncomputable section

namespace Idealize.ShloMosaic.TransposedRhs

open Idealize.ShloMosaic Idealize.ShloMosaic.ValueIdx

variable {M K N : Nat}

/-- The left operand is read at the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read at the row named by the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- Entry (p, q) of the product into a zero accumulator is Σ_k lhs (p, k) · rhs (q, k). -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    matmul (DotDims.transposedRhs M K N) prec x w (constant (F := Ideal) ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Idealize.ShloMosaic.TransposedRhs

end
-- ==== Proof.BlockEntry.lean ====
/-
  What the kernel body computes on one block of 512 rows, read entry by entry over the extended reals.

  The body rounds its operands to bfloat16 (the identity on extended reals), forms `x·Wᵀ` and `x·Aᵀ` from a zero
  accumulator, rounds the 512 × 16 intermediate again (the identity), forms `(x·Aᵀ)·Bᵀ`, multiplies it by the
  constant 2, and stores  (x·Wᵀ + bias) + 2-scaled low-rank part.  Each of the three products contracts the last
  axis of both operands, so entry (p, q) of the stored block is `LowRank.entry` of row `p` of the `x` block.
-/
import proofs.«144536_j8555574854313_2_alg».proof.Proof.Gen.KernelIdeal.Skeleton
import proofs.«144536_j8555574854313_2_alg».proof.Proof.Spec
import proofs.«144536_j8555574854313_2_alg».proof.Proof.LibTransposedRhs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- Entry (p, q) of `x·Wᵀ` on a block: Σ_d x(p,d)·W(q,d). -/
theorem dense_apply (x : FVec Ideal S512x2048 .bf16) (w : FVec Ideal S2048x2048 .bf16) (p : Fin 512) (q : Fin 2048) :
    matmul dot_S512x2048_S2048x2048_S512x2048_1_1_0_0_n_n none x w (constant (F := Ideal) S512x2048 .f32 0x00000000#32) (ix2 p q)
      = ∑ d : Fin 2048, x (ix2 p d) * w (ix2 q d) :=
  TransposedRhs.matmul_zero_apply (M := 512) (K := 2048) (N := 2048) none x w p q

/-- Entry (p, r) of `x·Aᵀ` on a block: Σ_d x(p,d)·A(r,d). -/
theorem down_apply (x : FVec Ideal S512x2048 .bf16) (a : FVec Ideal S16x2048 .bf16) (p : Fin 512) (r : Fin 16) :
    matmul dot_S512x2048_S16x2048_S512x16_1_1_0_0_n_n none x a (constant (F := Ideal) S512x16 .f32 0x00000000#32) (ix2 p r)
      = ∑ d : Fin 2048, x (ix2 p d) * a (ix2 r d) :=
  TransposedRhs.matmul_zero_apply (M := 512) (K := 2048) (N := 16) none x a p r

/-- Entry (p, q) of `low·Bᵀ` on a block: Σ_r low(p,r)·B(q,r). -/
theorem up_apply (low : FVec Ideal S512x16 .bf16) (b : FVec Ideal S2048x16 .bf16) (p : Fin 512) (q : Fin 2048) :
    matmul dot_S512x16_S2048x16_S512x2048_1_1_0_0_n_n none low b (constant (F := Ideal) S512x2048 .f32 0x00000000#32) (ix2 p q)
      = ∑ r : Fin 16, low (ix2 p r) * b (ix2 q r) :=
  TransposedRhs.matmul_zero_apply (M := 512) (K := 16) (N := 2048) none low b p q

/-- The stored block with its identity casts removed: the sum of the dense part with the broadcast bias row, plus
    the low-rank part times the broadcast constant. -/
theorem payload_eq (x0 : FVec Ideal S512x2048 .f32) (x1 : FVec Ideal S2048x2048 .bf16) (x2 : FVec Ideal S16x2048 .bf16)
    (x3 : FVec Ideal S2048x16 .bf16) (x4 : FVec Ideal S1x2048 .f32) :
    k0_pay1 (F := Ideal) x0 x1 x2 x3 x4
      = addf (addf (matmul dot_S512x2048_S2048x2048_S512x2048_1_1_0_0_n_n none (truncf .bf16 x0 bitsLt_bf16_f32) x1 (constant S512x2048 .f32 0x00000000#32))
            (broadcastTo S512x2048 x4 broadcasts_S1x2048_S512x2048))
          (mulf (matmul dot_S512x16_S2048x16_S512x2048_1_1_0_0_n_n none
              (truncf .bf16 (matmul dot_S512x2048_S16x2048_S512x16_1_1_0_0_n_n none (truncf .bf16 x0 bitsLt_bf16_f32) x2 (constant S512x16 .f32 0x00000000#32)) bitsLt_bf16_f32)
              x3 (constant S512x2048 .f32 0x00000000#32))
            (broadcast S512x2048 (Scalar.ofBits .f32 0x40000000#32))) := by
  unfold k0_pay1
  simp only [shapeCast_self]

/-- ENTRY (p, q) OF THE STORED BLOCK is the layer's column `q` on row `p` of the `x` block, with the bias entry
    read from the one bias row. -/
theorem payload_apply (x0 : FVec Ideal S512x2048 .f32) (x1 : FVec Ideal S2048x2048 .bf16) (x2 : FVec Ideal S16x2048 .bf16)
    (x3 : FVec Ideal S2048x16 .bf16) (x4 : FVec Ideal S1x2048 .f32) (p : Fin 512) (q : Fin 2048) :
    k0_pay1 (F := Ideal) x0 x1 x2 x3 x4 (ix2 p q)
      = Cert.LowRank.entry (fun d => x0 (ix2 p d)) x1 x2 x3 (x4 (ix2 (0 : Fin 1) q)) (Ideal.ofBits .f32 0x40000000#32) q := by
  rw [payload_eq]
  show (matmul dot_S512x2048_S2048x2048_S512x2048_1_1_0_0_n_n none (truncf .bf16 x0 bitsLt_bf16_f32) x1 (constant (F := Ideal) S512x2048 .f32 0x00000000#32) (ix2 p q)
        + broadcastTo S512x2048 x4 broadcasts_S1x2048_S512x2048 (ix2 p q))
      + matmul dot_S512x16_S2048x16_S512x2048_1_1_0_0_n_n none
          (truncf .bf16 (matmul dot_S512x2048_S16x2048_S512x16_1_1_0_0_n_n none (truncf .bf16 x0 bitsLt_bf16_f32) x2 (constant (F := Ideal) S512x16 .f32 0x00000000#32)) bitsLt_bf16_f32)
          x3 (constant (F := Ideal) S512x2048 .f32 0x00000000#32) (ix2 p q)
        * Ideal.ofBits .f32 0x40000000#32 = _
  rw [dense_apply, up_apply, broadcastTo_1b_ab_apply]
  simp only [truncf_apply, down_apply]
  rfl

end Cert.KernelIdeal.BlockValue

end
-- ==== Proof.ArrayValue.lean ====
/-
  From blocks to the array: what the kernel's output array holds after all sixteen grid points.

  Grid point `t` reads rows 512·t … 512·t + 511 of the [8192, 2048] input (and the whole of the weights, the
  factors and the bias row, which never move), and writes back the same rows of the output. Entry (p, q) of the
  block it writes is the layer's column `q` on row `p` of its input block (`BlockValue.payload_apply`), that is,
  on row 512·t + p of the input array. So the block written at `t` is block `t` of ONE function of the arrays,
  `rows`; the sixteen blocks tile the output (row `r` lies in the block of point `r / 512`), hence the output
  array is `rows`.
-/
import proofs.«144536_j8555574854313_2_alg».proof.Proof.Gen.KernelIdeal.Frame
import proofs.«144536_j8555574854313_2_alg».proof.Proof.BlockEntry
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output array as one function of the arrays the kernel is launched on: entry (r, q) is the layer's column
    `q` on row `r` of `X`, the bias read from the one row of `bias`. -/
def rows (X : FVec Ideal S8192x2048 .f32) (W : FVec Ideal S2048x2048 .bf16) (A : FVec Ideal S16x2048 .bf16)
    (B : FVec Ideal S2048x16 .bf16) (bias : FVec Ideal S1x2048 .f32) : FVec Ideal S8192x2048 .f32 :=
  fun j => Cert.LowRank.entry (fun d => X (ix2 (j 0) d)) W A B (bias (ix2 (0 : Fin 1) (j 1))) (Ideal.ofBits .f32 0x40000000#32) (j 1)

theorem rows_apply (X : FVec Ideal S8192x2048 .f32) (W : FVec Ideal S2048x2048 .bf16) (A : FVec Ideal S16x2048 .bf16)
    (B : FVec Ideal S2048x16 .bf16) (bias : FVec Ideal S1x2048 .f32) (r : Fin 8192) (q : Fin 2048) :
    rows X W A B bias (ix2 r q)
      = Cert.LowRank.entry (fun d => X (ix2 r d)) W A B (bias (ix2 (0 : Fin 1) q)) (Ideal.ofBits .f32 0x40000000#32) q := rfl

/-- One grid point, over plain variables: if the block `x0` is rows `512·T …` of `X`, then entry `y` of what the body
    stores is entry `i` of `rows`, for `i` the place of `y` in the array. -/
theorem point_eq (X : FVec Ideal S8192x2048 .f32) (W : FVec Ideal S2048x2048 .bf16) (A : FVec Ideal S16x2048 .bf16)
    (B : FVec Ideal S2048x16 .bf16) (bias : FVec Ideal S1x2048 .f32) (x0 : FVec Ideal S512x2048 .f32) (T : Nat)
    (hx : ∀ (y : S512x2048.Idx) (i : S8192x2048.Idx), (i 0).val = T * 512 + (y 0).val → (i 1).val = (y 1).val → x0 y = X i)
    (y : S512x2048.Idx) (i : S8192x2048.Idx) (hi0 : (i 0).val = T * 512 + (y 0).val) (hi1 : (i 1).val = (y 1).val) :
    k0_pay1 (F := Ideal) x0 W A B bias y = rows X W A B bias i := by
  obtain ⟨p, q, rfl⟩ : ∃ (p : Fin 512) (q : Fin 2048), y = ix2 p q := ⟨y 0, y 1, eq_ix2 y⟩
  obtain ⟨r, q', rfl⟩ : ∃ (r : Fin 8192) (q' : Fin 2048), i = ix2 r q' := ⟨i 0, i 1, eq_ix2 i⟩
  obtain rfl : q' = q := Fin.ext hi1
  rw [BlockValue.payload_apply, rows_apply]
  have hrow : (fun d : Fin 2048 => x0 (ix2 p d)) = fun d => X (ix2 r d) :=
    funext fun d => hx (ix2 p d) (ix2 r d) hi0 rfl
  rw [hrow]

/-! ## The index maps over the grid -/

/-- The input rows and the output rows move together, one block of 512 rows per point. -/
theorem idx_rows : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

/-- The weights, the two factors and the bias row stay at their one block. -/
theorem idx_fixed : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## Each input block as the array it is cut from -/

/-- The `x` block at point `t` is rows 512·t … of the array. -/
theorem blk_x (c : Dev nD) (t : Fin cfg0.N) (y : S512x2048.Idx) (i : S8192x2048.Idx)
    (h0 : (i 0).val = t.val * 512 + (y 0).val) (h1 : (i 1).val = (y 1).val) :
    (iblk m c 0 t : FVec Ideal S512x2048 .f32) y = (V m c main_v0 : FVec Ideal S8192x2048 .f32) i := by
  obtain ⟨e0, e1, -, -⟩ := idx_rows t
  show V m c main_v0 (((cfg0.win 0).blk t).view.emb y) = V m c main_v0 i
  refine congrArg (V m c main_v0) ?_
  funext a; apply Fin.ext
  match a with
  | ⟨0, _⟩ => show win0_0.index t (0 : Fin 2) * 512 + 1 * (y 0).val = (i 0).val; omega
  | ⟨1, _⟩ => show win0_0.index t (1 : Fin 2) * 2048 + 1 * (y 1).val = (i 1).val; omega

/-- The weights' block is the whole array. -/
theorem blk_W (c : Dev nD) (t : Fin cfg0.N) : (iblk m c 1 t : FVec Ideal S2048x2048 .bf16) = V m c main_v2 := by
  obtain ⟨e0, e1, -, -, -, -, -, -⟩ := idx_fixed t
  funext y
  show V m c main_v2 (((cfg0.win 1).blk t).view.emb y) = V m c main_v2 y
  refine congrArg (V m c main_v2) ?_
  funext a; apply Fin.ext
  match a with
  | ⟨0, _⟩ => show win0_1.index t (0 : Fin 2) * 2048 + 1 * (y 0).val = (y 0).val; omega
  | ⟨1, _⟩ => show win0_1.index t (1 : Fin 2) * 2048 + 1 * (y 1).val = (y 1).val; omega

/-- The down factor's block is the whole array. -/
theorem blk_A (c : Dev nD) (t : Fin cfg0.N) : (iblk m c 2 t : FVec Ideal S16x2048 .bf16) = V m c main_v3 := by
  obtain ⟨-, -, e0, e1, -, -, -, -⟩ := idx_fixed t
  funext y
  show V m c main_v3 (((cfg0.win 2).blk t).view.emb y) = V m c main_v3 y
  refine congrArg (V m c main_v3) ?_
  funext a; apply Fin.ext
  match a with
  | ⟨0, _⟩ => show win0_2.index t (0 : Fin 2) * 16 + 1 * (y 0).val = (y 0).val; omega
  | ⟨1, _⟩ => show win0_2.index t (1 : Fin 2) * 2048 + 1 * (y 1).val = (y 1).val; omega

/-- The up factor's block is the whole array. -/
theorem blk_B (c : Dev nD) (t : Fin cfg0.N) : (iblk m c 3 t : FVec Ideal S2048x16 .bf16) = V m c main_v4 := by
  obtain ⟨-, -, -, -, e0, e1, -, -⟩ := idx_fixed t
  funext y
  show V m c main_v4 (((cfg0.win 3).blk t).view.emb y) = V m c main_v4 y
  refine congrArg (V m c main_v4) ?_
  funext a; apply Fin.ext
  match a with
  | ⟨0, _⟩ => show win0_3.index t (0 : Fin 2) * 2048 + 1 * (y 0).val = (y 0).val; omega
  | ⟨1, _⟩ => show win0_3.index t (1 : Fin 2) * 16 + 1 * (y 1).val = (y 1).val; omega

/-- The bias row's block is the whole array. -/
theorem blk_bias (c : Dev nD) (t : Fin cfg0.N) : (iblk m c 4 t : FVec Ideal S1x2048 .f32) = V m c main_v1 := by
  obtain ⟨-, -, -, -, -, -, e0, e1⟩ := idx_fixed t
  funext y
  show V m c main_v1 (((cfg0.win 4).blk t).view.emb y) = V m c main_v1 y
  refine congrArg (V m c main_v1) ?_
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

/-! ## What a point writes back, the cover, the array -/

/-- WHAT POINT `t` WRITES BACK is block `t` of `rows` of the arrays as the kernel finds them. -/
theorem flushed_eq (c : Dev nD) (t : Fin cfg0.N) :
    (dats m 0 c).flushed 5 t
      = ((cfg0.win 5).blk t).view.read (Elt Ideal) (rows (V m c main_v0) (V m c main_v2) (V m c main_v3) (V m c main_v4) (V m c main_v1)) := by
  show (cfg0.win 5).cut (grid0.coords t) ((dats m 0 c).after 5 t) = _
  rw [after0_5]
  unfold out0_5
  rw [View.canon_unit_zero hz]
  simp only [View.ld_unit_zero (S := S512x2048) hz, View.ld_unit_zero (S := S2048x2048) hz, View.ld_unit_zero (S := S16x2048) hz,
    View.ld_unit_zero (S := S2048x16) hz, View.ld_unit_zero (S := S1x2048) hz]
  rw [blk_W m c t, blk_A m c t, blk_B m c t, blk_bias m c t]
  obtain ⟨-, -, e0, e1⟩ := idx_rows t
  funext y
  show k0_pay1 (F := Ideal) (iblk m c 0 t) (V m c main_v2) (V m c main_v3) (V m c main_v4) (V m c main_v1) y
    = rows (V m c main_v0) (V m c main_v2) (V m c main_v3) (V m c main_v4) (V m c main_v1) (((cfg0.win 5).blk t).view.emb y)
  refine point_eq (V m c main_v0) (V m c main_v2) (V m c main_v3) (V m c main_v4) (V m c main_v1) (iblk m c 0 t) t.val
    (fun y' i' h0 h1 => blk_x m c t y' i' h0 h1) y _ ?_ ?_
  · show win0_5.index t (0 : Fin 2) * 512 + 1 * (y 0).val = t.val * 512 + (y 0).val; omega
  · show win0_5.index t (1 : Fin 2) * 2048 + 1 * (y 1).val = (y 1).val; omega

/-- An index of the output array is in point `t`'s block iff each coordinate is in the block's range on its axis. -/
theorem mem_blk (t : Fin cfg0.N) (i : S8192x2048.Idx) :
    i ∈ ((cfg0.win 5).blk t).view.set
      ↔ ∀ a : Fin 2, win0_5.index t a * S512x2048.size a ≤ (i a).val ∧ (i a).val < win0_5.index t a * S512x2048.size a + S512x2048.size a := by
  show i ∈ ((View.whole main_v5).slice (win0_5.rect t)).set ↔ _
  rw [View.set_slice_whole, Rect.mem_set_unit]
  exact Iff.rfl

/-- Every index of the output is in the block of the point its row names: row `r` belongs to point `r / 512`. -/
theorem cover (i : S8192x2048.Idx) : ∃ t : Fin cfg0.N, (cfg0.win 5).flush t = true ∧ i ∈ ((cfg0.win 5).blk t).view.set := by
  have h0 : (i 0).val < 8192 := idx2_lt0 i
  have h1 : (i 1).val < 2048 := idx2_lt1 i
  have hN : cfg0.N = 16 := N_0
  have ht : (i 0).val / 512 < cfg0.N := by rw [hN]; omega
  obtain ⟨-, -, e0, e1⟩ := idx_rows ⟨(i 0).val / 512, ht⟩
  have e0' : win0_5.index ⟨(i 0).val / 512, ht⟩ (0 : Fin 2) = (i 0).val / 512 := e0
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    omega
  | ⟨1, _⟩ =>
    show win0_5.index ⟨(i 0).val / 512, ht⟩ (1 : Fin 2) * 2048 ≤ (i 1).val ∧ (i 1).val < win0_5.index ⟨(i 0).val / 512, ht⟩ (1 : Fin 2) * 2048 + 2048
    omega

/-- THE OUTPUT ARRAY after the last point is `rows` of the arrays as the kernel finds them. -/
theorem final (c : Dev nD) :
    (dats m 0 c).arrAt 5 cfg0.N = rows (V m c main_v0) (V m c main_v2) (V m c main_v3) (V m c main_v4) (V m c main_v1) :=
  (dats m 0 c).arrAt_eq_of_cover 5 _ (fun t _ => flushed_eq m c t) cover

end Cert.KernelIdeal.ArrayValue

end
-- ==== Proof.HostValue.lean ====
/-
  The host lines around the kernel launch, read as values.

  Before the launch the program recasts `x` from [4, 2048, 2048] to [8192, 2048] (row (a, t) becomes row
  2048·a + t), recasts the bias from [2048] to one row [1, 2048], and rounds `W`, `A` and `B` to bfloat16 — the
  identity over the extended reals. After the launch it recasts the kernel's [8192, 2048] output back to
  [4, 2048, 2048]. A recast keeps every element at its row-major position.
-/
import proofs.«144536_j8555574854313_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## Before the launch -/

/-- The kernel's first operand is `x` recast to [8192, 2048]. -/
theorem V_x (c : Dev nD) :
    (V m c main_v0 : FVec Ideal S8192x2048 .f32)
      = shapeCast S8192x2048 (m ((c : Thread nD τ).loc main_arg0) : FVec Ideal S4x2048x2048 .f32) shapeCasts_S4x2048x2048_S8192x2048 := by
  show StableHlo.after hostOps0 (fun b => m (c, b)) (Proc.devRef .tc main_v0) = _
  after_results
  rfl

/-- Row 2048·a + t of it is row (a, t) of `x`. -/
theorem V_x_apply (c : Dev nD) (a : Fin 4) (t : Fin 2048) (d : Fin 2048) (r : Fin 8192) (hr : r.val = a.val * 2048 + t.val) :
    (V m c main_v0 : FVec Ideal S8192x2048 .f32) (ix2 r d)
      = (m ((c : Thread nD τ).loc main_arg0) : FVec Ideal S4x2048x2048 .f32) (ix3 a t d) := by
  rw [V_x]
  refine shapeCast_apply _ _ (ix2 r d) (ix3 a t d) ?_
  rw [Shape.rowMajor_val_three, Shape.rowMajor_val_two]
  show (a.val * 2048 + t.val) * 2048 + d.val = r.val * 2048 + d.val
  rw [hr]

/-- The kernel's last operand is the bias as one row. -/
theorem V_bias (c : Dev nD) :
    (V m c main_v1 : FVec Ideal S1x2048 .f32)
      = shapeCast S1x2048 (m ((c : Thread nD τ).loc main_arg2) : FVec Ideal S2048 .f32) shapeCasts_S2048_S1x2048 := by
  show StableHlo.after hostOps0 (fun b => m (c, b)) (Proc.devRef .tc main_v1) = _
  after_results
  rfl

/-- Its entry `o` is the bias at `o`. -/
theorem V_bias_apply (c : Dev nD) (o : Fin 2048) :
    (V m c main_v1 : FVec Ideal S1x2048 .f32) (ix2 (0 : Fin 1) o)
      = (m ((c : Thread nD τ).loc main_arg2) : FVec Ideal S2048 .f32) (ix1 o) := by
  rw [V_bias]
  exact shapeCast_a_1a_apply _ _ (0 : Fin 1) o

/-- The weights as the kernel finds them: `W` itself (rounding is the identity here). -/
theorem V_W (c : Dev nD) :
    (V m c main_v2 : FVec Ideal S2048x2048 .bf16) = (m ((c : Thread nD τ).loc main_arg1) : FVec Ideal S2048x2048 .f32) := by
  show StableHlo.after hostOps0 (fun b => m (c, b)) (Proc.devRef .tc main_v2) = _
  after_results
  rfl

/-- The down factor as the kernel finds it: `A` itself. -/
theorem V_A (c : Dev nD) :
    (V m c main_v3 : FVec Ideal S16x2048 .bf16) = (m ((c : Thread nD τ).loc main_arg3) : FVec Ideal S16x2048 .f32) := by
  show StableHlo.after hostOps0 (fun b => m (c, b)) (Proc.devRef .tc main_v3) = _
  after_results
  rfl

/-- The up factor as the kernel finds it: `B` itself. -/
theorem V_B (c : Dev nD) :
    (V m c main_v4 : FVec Ideal S2048x16 .bf16) = (m ((c : Thread nD τ).loc main_arg4) : FVec Ideal S2048x16 .f32) := by
  show StableHlo.after hostOps0 (fun b => m (c, b)) (Proc.devRef .tc main_v4) = _
  after_results
  rfl

/-! ## After the launch -/

/-- The program's result is the kernel's output array recast to [4, 2048, 2048]. -/
theorem tail_eq (c : Dev nD) :
    (Pipeline.afterTail₀ cfgs (dats m) 0 (V0 m) [hostOps1] c main_v6 : FVec Ideal S4x2048x2048 .f32)
      = shapeCast S4x2048x2048 ((dats m 0 c).arrAt 5 cfg0.N : FVec Ideal S8192x2048 .f32) shapeCasts_S8192x2048_S4x2048x2048 := by
  unfold Pipeline.afterTail₀
  show StableHlo.after hostOps1 _ (Proc.devRef .tc main_v6) = _
  after_results
  have hw := Pipeline.withArrays_arr (Val := Elt Ideal) spec0 launch0.win.arr_inj c (V0 m c) (fun w => (dats m 0 c).arrAt w cfg0.N) 5
  show shapeCast S4x2048x2048
      (Pipeline.withArrays spec0 c (V0 m c) (fun w => (dats m 0 c).arrAt w cfg0.N) (Proc.devRef .tc (Pipeline.arrRef spec0 5)) : FVec Ideal S8192x2048 .f32)
      shapeCasts_S8192x2048_S4x2048x2048 = _
  exact congrArg (fun v : FVec Ideal S8192x2048 .f32 => shapeCast S4x2048x2048 v shapeCasts_S8192x2048_S4x2048x2048) hw

/-- Entry (a, t, o) of the result is entry (2048·a + t, o) of the kernel's output array. -/
theorem tail_apply (c : Dev nD) (a : Fin 4) (t : Fin 2048) (o : Fin 2048) (r : Fin 8192) (hr : r.val = a.val * 2048 + t.val) :
    (Pipeline.afterTail₀ cfgs (dats m) 0 (V0 m) [hostOps1] c main_v6 : FVec Ideal S4x2048x2048 .f32) (ix3 a t o)
      = ((dats m 0 c).arrAt 5 cfg0.N : FVec Ideal S8192x2048 .f32) (ix2 r o) := by
  rw [tail_eq]
  refine shapeCast_apply _ _ (ix3 a t o) (ix2 r o) ?_
  rw [Shape.rowMajor_val_three, Shape.rowMajor_val_two]
  show r.val * 2048 + o.val = (a.val * 2048 + t.val) * 2048 + o.val
  rw [hr]

end Cert.KernelIdeal.HostValue

end
-- ==== Proof.KernelValue.lean ====
/-
  The idealized kernel program's run, read: its result array is the layer of `Spec.lean` applied to the five
  arguments.

  Entry (a, t, o) of the result is entry (2048·a + t, o) of the kernel's [8192, 2048] output (the recast after the
  launch), which is the layer's column `o` on row 2048·a + t of the kernel's first operand (the sixteen blocks
  assembled), which is row (a, t) of `x` (the recast before the launch); the weights and the two factors reach the
  kernel unchanged and the bias as one row.
-/
import proofs.«144536_j8555574854313_2_alg».proof.Proof.ArrayValue
import proofs.«144536_j8555574854313_2_alg».proof.Proof.HostValue

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the program's result buffer holds after the lines that follow the launch: the layer of the arguments. -/
theorem result_eq (c : Dev nD) :
    (Pipeline.afterTail₀ cfgs (dats m) 0 (V0 m) [hostOps1] c main_v6 : FVec Ideal S4x2048x2048 .f32)
      = Cert.LowRank.layer (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨a, t, o, rfl⟩ : ∃ (a : Fin 4) (t : Fin 2048) (o : Fin 2048), i = ix3 a t o := ⟨i 0, i 1, i 2, eq_ix3 i⟩
  have hlt : a.val * 2048 + t.val < 8192 := by have := a.isLt; have := t.isLt; omega
  rw [HostValue.tail_apply m c a t o ⟨a.val * 2048 + t.val, hlt⟩ rfl, ArrayValue.final, ArrayValue.rows_apply,
    Cert.LowRank.layer_apply]
  unfold Cert.LowRank.layerAt
  rw [HostValue.V_W, HostValue.V_A, HostValue.V_B, HostValue.V_bias_apply]
  have hrow : (fun d : Fin 2048 => (V m c main_v0 : FVec Ideal S8192x2048 .f32) (ix2 ⟨a.val * 2048 + t.val, hlt⟩ d))
      = fun d => (m ((c : Thread nD τ).loc main_arg0) : FVec Ideal S4x2048x2048 .f32) (ix3 a t d) :=
    funext fun d => HostValue.V_x_apply m c a t d _ rfl
  rw [hrow]

/-- THE RUN: every weakly fair execution of the program terminates with its result at the layer of the arguments and
    the arguments unchanged. -/
theorem run : θ_run defs (onTc (τ := τ) (main (F := Ideal))) ⟨m, fun _ => 0, ρ⟩ fun r => ∀ c : Dev nD,
      r.2.mem ((c.tc : Thread nD τ).loc main_v6)
        = Cert.LowRank.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefValue.lean ====
/-
  The reference program's result, read entry by entry, is the layer of `Spec.lean`.

  The reference is three contractions, a broadcast bias and a broadcast constant 2: entry (a, t, o) of
  `x·Wᵀ` is Σ_d x(a,t,d)·W(o,d); the bias is broadcast along the last axis, so it contributes b(o); the low-rank
  part is Σ_r (Σ_d x(a,t,d)·A(r,d))·B(o,r), multiplied by the constant; and the two halves are added in that
  order. That is `LowRank.layerAt` literally, once each operand's index is named by its coordinates.
-/
import proofs.«144536_j8555574854313_2_alg».proof.Proof.Gen.ReferenceIdeal.Read
import proofs.«144536_j8555574854313_2_alg».proof.Proof.Spec

noncomputable section

namespace Cert.ReferenceIdeal.RefValue

open Cert.ReferenceIdeal Cert.ReferenceIdeal.Read Idealize.ShloMosaic Idealize.ShloMosaic.ValueIdx

/-- The reference's last stage is the layer, as whole arrays. -/
theorem result_eq (x0 : (⟨S4x2048x2048, .f32⟩ : BufTy).Contents (Elt Ideal)) (x1 : (⟨S2048x2048, .f32⟩ : BufTy).Contents (Elt Ideal))
    (x2 : (⟨S2048, .f32⟩ : BufTy).Contents (Elt Ideal)) (x3 : (⟨S16x2048, .f32⟩ : BufTy).Contents (Elt Ideal))
    (x4 : (⟨S2048x16, .f32⟩ : BufTy).Contents (Elt Ideal)) :
    val_main_v8 (F := Ideal) x0 x1 x2 x3 x4 = Cert.LowRank.layer x0 x1 x2 x3 x4 := by
  funext i
  obtain ⟨a, t, o, rfl⟩ : ∃ (a : Fin 4) (t : Fin 2048) (o : Fin 2048), i = ix3 a t o := ⟨i 0, i 1, i 2, eq_ix3 i⟩
  -- each operand's index, by coordinates
  have e0l : ∀ k : Fin 2048, lidx_main_v0 (ix3 a t o) k = ix3 a t k := fun k => funext fun ax => Fin.ext (by
    match ax with | ⟨0, _⟩ => rfl | ⟨1, _⟩ => rfl | ⟨2, _⟩ => rfl)
  have e0r : ∀ k : Fin 2048, ridx_main_v0 (ix3 a t o) k = ix2 o k := fun k => funext fun ax => Fin.ext (by
    match ax with | ⟨0, _⟩ => rfl | ⟨1, _⟩ => rfl)
  have eb : idx_main_v1 (idx_main_v2 (ix3 a t o)) = ix1 o := funext fun ax => Fin.ext (by
    match ax with | ⟨0, _⟩ => rfl)
  have e4l : ∀ (r : Fin 16) (k : Fin 2048), lidx_main_v4 (lidx_main_v5 (ix3 a t o) r) k = ix3 a t k := fun r k => funext fun ax => Fin.ext (by
    match ax with | ⟨0, _⟩ => rfl | ⟨1, _⟩ => rfl | ⟨2, _⟩ => rfl)
  have e4r : ∀ (r : Fin 16) (k : Fin 2048), ridx_main_v4 (lidx_main_v5 (ix3 a t o) r) k = ix2 r k := fun r k => funext fun ax => Fin.ext (by
    match ax with | ⟨0, _⟩ => rfl | ⟨1, _⟩ => rfl)
  have e5r : ∀ r : Fin 16, ridx_main_v5 (ix3 a t o) r = ix2 o r := fun r => funext fun ax => Fin.ext (by
    match ax with | ⟨0, _⟩ => rfl | ⟨1, _⟩ => rfl)
  rw [val_main_v8_apply, val_main_v3_apply, val_main_v0_apply, val_main_v2_apply, val_main_v1_apply, val_main_v7_apply,
    val_main_v5_apply, val_main_v6_apply, val_main_cst_apply]
  simp only [val_main_v4_apply, e0l, e0r, eb, e4l, e4r, e5r]
  rfl

end Cert.ReferenceIdeal.RefValue

end
-- ==== Proof.lean ====
/-
  A dense layer with a rank-16 correction, tiled over rows, against its plain description.

  Both programs compute, for x : [4, 2048, 2048], W : [2048, 2048], b : [2048], A : [16, 2048], B : [2048, 16],

      y(a,t,o) = (Σ_d x(a,t,d)·W(o,d) + b(o)) + (Σ_r (Σ_d x(a,t,d)·A(r,d))·B(o,r)) · 2 .

  The reference spells this with three contractions over the whole arrays. The kernel program flattens the 4 × 2048
  rows to 8192, cuts them into sixteen blocks of 512, and on each block forms the same three contractions from a zero
  accumulator (with roundings to bfloat16 that are the identity over the extended reals), adds the bias row, scales
  the low-rank part by 2 and adds it; then the 8192 rows are folded back to 4 × 2048. Entry by entry the two are the
  SAME expression in the same grouping (`Spec.lean`'s `LowRank.entry`), so no law of extended-real arithmetic — and
  no finiteness of the inputs — is used: the proof is bookkeeping of which array entry each operand is.

  Modules: `Spec` (the function), `LibTransposedRhs` (a product with the right operand transposed, at an entry),
  `BlockEntry` (the kernel body on one block), `ArrayValue` (the sixteen blocks assembled), `HostValue` (the
  recasts around the launch), `KernelValue` (the kernel program's run), `RefValue` (the reference is the same
  function). The frames are the generated ones; the idealization changed nothing, so `preserves` is trivial.
-/
import proofs.«144536_j8555574854313_2_alg».proof.Defs
import proofs.«144536_j8555574854313_2_alg».proof.Proof.Gen.Kernel
import proofs.«144536_j8555574854313_2_alg».proof.Proof.Gen.Kernel.Skeleton
import proofs.«144536_j8555574854313_2_alg».proof.Proof.Gen.Kernel.Launch
import proofs.«144536_j8555574854313_2_alg».proof.Proof.Gen.Kernel.Points
import proofs.«144536_j8555574854313_2_alg».proof.Proof.Gen.Kernel.Frame
import proofs.«144536_j8555574854313_2_alg».proof.Proof.Gen.KernelIdeal
import proofs.«144536_j8555574854313_2_alg».proof.Proof.Gen.KernelIdeal.Skeleton
import proofs.«144536_j8555574854313_2_alg».proof.Proof.Gen.KernelIdeal.Launch
import proofs.«144536_j8555574854313_2_alg».proof.Proof.Gen.KernelIdeal.Points
import proofs.«144536_j8555574854313_2_alg».proof.Proof.Gen.KernelIdeal.Frame
import proofs.«144536_j8555574854313_2_alg».proof.Proof.Gen.ReferenceIdeal
import proofs.«144536_j8555574854313_2_alg».proof.Proof.Gen.Pre_finite_inputs
import proofs.«144536_j8555574854313_2_alg».proof.Proof.Gen.ReferenceIdeal.Run
import proofs.«144536_j8555574854313_2_alg».proof.Proof.Gen.ReferenceIdeal.Read
import proofs.«144536_j8555574854313_2_alg».proof.Proof.KernelValue
import proofs.«144536_j8555574854313_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the (agreeing) arguments in their result. -/
theorem algebraic : Cert.algebraic_KernelIdeal_ReferenceIdeal := by
  intro m ρ m' ρ' _ hagree
  refine ⟨fun c => Cert.LowRank.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  have e := hagree c
  rw [Cert.ReferenceIdeal.Read.val_main_v8_eq, Cert.ReferenceIdeal.RefValue.result_eq, e.1, e.2.1, e.2.2.1, e.2.2.2.1, e.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
